-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S1x128x1x1 : Shape := ⟨4, ![1, 128, 1, 1]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel
  bcast_S_S1x128x1x1 : S_.BroadcastsInDim S1x128x1x1 (![] : Fin 0 → Fin S1x128x1x1.rank)
  reducesTo_S1x128x1x1_S_d0_1_2_3 : S1x128x1x1.ReducesTo [0, 1, 2, 3] S_

variable [Facts]

def fn {F : FTy → Type} [FloatOps F] (main_arg0 : FVec F S8x128x128x256 .f32) (main_arg1 : FVec F S1x128x1x1 .f32) (main_arg2 : FVec F S1x128x1x1 .f32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  let main_v4 : FVec F S1x128x1x1 .f32 := Host.absf main_arg1
  let main_cst_0 : FVec F S_ .f32 := constant S_ .f32 0x7F800000#32
  let main_v5 : FVec F S1x128x1x1 .f32 := broadcastInDim S1x128x1x1 ![] bcast_S_S1x128x1x1 main_cst_0
  let main_v6 : IVec S1x128x1x1 1 := cmpf .olt main_v4 main_v5
  let main_c_1 : IVec S_ 1 := constantI S_ 1 1#1
  let main_v7 : IVec S_ 1 := (fun x v => Host.reduce IntOp.andi x v reducesTo_S1x128x1x1_S_d0_1_2_3 h_S_) main_v6 main_c_1
  let main_v8 : IVec S_ 1 := andi main_v3 main_v7
  let main_v9 : FVec F S1x128x1x1 .f32 := Host.absf main_arg2
  let main_cst_2 : FVec F S_ .f32 := constant S_ .f32 0x7F800000#32
  let main_v10 : FVec F S1x128x1x1 .f32 := broadcastInDim S1x128x1x1 ![] bcast_S_S1x128x1x1 main_cst_2
  let main_v11 : IVec S1x128x1x1 1 := cmpf .olt main_v9 main_v10
  let main_c_3 : IVec S_ 1 := constantI S_ 1 1#1
  let main_v12 : IVec S_ 1 := (fun x v => Host.reduce IntOp.andi x v reducesTo_S1x128x1x1_S_d0_1_2_3 h_S_) main_v11 main_c_3
  let main_v13 : IVec S_ 1 := andi main_v8 main_v12
  main_v13
-- ==== Kernel.lean ====
abbrev S8x128x128x256 : Shape := ⟨4, ![8, 128, 128, 256]⟩
abbrev S1x128x1x1 : Shape := ⟨4, ![1, 128, 1, 1]⟩
abbrev S1x32x128x256 : Shape := ⟨4, ![1, 32, 128, 256]⟩
abbrev S1x32x1x1 : Shape := ⟨4, ![1, 32, 1, 1]⟩
abbrev S1x32x128 : Shape := ⟨3, ![1, 32, 128]⟩
abbrev S1x32x128x1 : Shape := ⟨4, ![1, 32, 128, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x128x128x256, .f32⟩
  | .hbm, ⟨1, _⟩ => ⟨S1x128x1x1, .f32⟩
  | .hbm, ⟨2, _⟩ => ⟨S1x128x1x1, .f32⟩
  | .hbm, ⟨3, _⟩ => ⟨S8x128x128x256, .f32⟩
  | .local _ .vmem, ⟨0, _⟩ => ⟨S1x32x128x256, .f32⟩
  | .local _ .vmem, ⟨1, _⟩ => ⟨S1x32x128x256, .f32⟩
  | .local _ .vmem, ⟨2, _⟩ => ⟨S1x32x1x1, .f32⟩
  | .local _ .vmem, ⟨3, _⟩ => ⟨S1x32x1x1, .f32⟩
  | .local _ .vmem, ⟨4, _⟩ => ⟨S1x32x1x1, .f32⟩
  | .local _ .vmem, ⟨5, _⟩ => ⟨S1x32x1x1, .f32⟩
  | .local _ .vmem, ⟨6, _⟩ => ⟨S1x32x128x256, .f32⟩
  | .local _ .vmem, ⟨7, _⟩ => ⟨S1x32x128x256, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x32x128x256_S1x32x128x256_0_0_0_0 : ∀ a, (![0, 0, 0, 0] : Fin 4 → Nat) a + S1x32x128x256.size a ≤ S1x32x128x256.size a
  h_S1x32x128x256 : 0 < S1x32x128x256.numel
  reduces_S1x32x128x256_S1x32x128 : S1x32x128x256.Reduces [3] S1x32x128
  shapeCasts_S1x32x128_S1x32x128x1 : S1x32x128.ShapeCasts S1x32x128x1
  broadcasts_S1x32x128x1_S1x32x128x256 : S1x32x128x1.Broadcasts S1x32x128x256
  inb_S1x32x1x1_S1x32x1x1_0_0_0_0 : ∀ a, (![0, 0, 0, 0] : Fin 4 → Nat) a + S1x32x1x1.size a ≤ S1x32x1x1.size a
  h_S1x32x1x1 : 0 < S1x32x1x1.numel
  broadcasts_S1x32x1x1_S1x32x128x1 : S1x32x1x1.Broadcasts S1x32x128x1
  broadcasts_S1x32x1x1_S1x32x128x256 : S1x32x1x1.Broadcasts S1x32x128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x256.size a ≤ S8x128x128x256.size a
  hwx0_0 : ∀ i : grid0.Coords, EltTy.bits .f32 = 32 ∨ (Rect.block (s := S8x128x128x256) S1x32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1x1.size a ≤ S1x128x1x1.size a
  hwx0_1 : ∀ i : grid0.Coords, EltTy.bits .f32 = 32 ∨ (Rect.block (s := S1x128x1x1) S1x32x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1x1.size a ≤ S1x128x1x1.size a
  hwx0_2 : ∀ i : grid0.Coords, EltTy.bits .f32 = 32 ∨ (Rect.block (s := S1x128x1x1) S1x32x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128x256.size a ≤ S8x128x128x256.size a
  hwx0_3 : ∀ i : grid0.Coords, EltTy.bits .f32 = 32 ∨ (Rect.block (s := S8x128x128x256) S1x32x128x256.size (cc0_transform_3 i) (hinb0_3 i)).WholeWords (EltTy.packing .f32)

variable [Facts₀]

abbrev win0_0 : Pipeline.Window sig grid0 :=
  Pipeline.Window.ofSpec (Memref.whole main_arg0) S1x32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S1x128x1x1 : Shape := ⟨4, ![1, 128, 1, 1]⟩
abbrev S_ : Shape := ⟨0, ![]⟩
abbrev S8x128x128 : Shape := ⟨3, ![8, 128, 128]⟩
abbrev S8x128x128x1 : Shape := ⟨4, ![8, 128, 128, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S1x128x1x1, .f32⟩
  | .hbm, ⟨2, _⟩ => ⟨S1x128x1x1, .f32⟩
  | .hbm, ⟨3, _⟩ => ⟨S_, .f32⟩
  | .hbm, ⟨4, _⟩ => ⟨S8x128x128, .f32⟩
  | .hbm, ⟨5, _⟩ => ⟨S8x128x128x1, .f32⟩
  | .hbm, ⟨6, _⟩ => ⟨S_, .f32⟩
  | .hbm, ⟨7, _⟩ => ⟨S8x128x128x1, .f32⟩
  | .hbm, ⟨8, _⟩ => ⟨S8x128x128x1, .f32⟩
  | .hbm, ⟨9, _⟩ => ⟨S8x128x128x256, .f32⟩
  | .hbm, ⟨10, _⟩ => ⟨S8x128x128x256, .f32⟩
  | .hbm, ⟨11, _⟩ => ⟨S8x128x128x256, .f32⟩
  | .hbm, ⟨12, _⟩ => ⟨S_, .f32⟩
  | .hbm, ⟨13, _⟩ => ⟨S8x128x128, .f32⟩
  | .hbm, ⟨14, _⟩ => ⟨S8x128x128x1, .f32⟩
  | .hbm, ⟨15, _⟩ => ⟨S_, .f32⟩
  | .hbm, ⟨16, _⟩ => ⟨S8x128x128x1, .f32⟩
  | .hbm, ⟨17, _⟩ => ⟨S8x128x128x1, .f32⟩
  | .hbm, ⟨18, _⟩ => ⟨S_, .f32⟩
  | .hbm, ⟨19, _⟩ => ⟨S8x128x128x1, .f32⟩
  | .hbm, ⟨20, _⟩ => ⟨S8x128x128x1, .f32⟩
  | .hbm, ⟨21, _⟩ => ⟨S8x128x128x1, .f32⟩
  | .hbm, ⟨22, _⟩ => ⟨S8x128x128x256, .f32⟩
  | .hbm, ⟨23, _⟩ => ⟨S8x128x128x256, .f32⟩
  | .hbm, ⟨24, _⟩ => ⟨S8x128x128x256, .f32⟩
  | .hbm, ⟨25, _⟩ => ⟨S8x128x128x256, .f32⟩
  | .hbm, ⟨26, _⟩ => ⟨S8x128x128x256, .f32⟩
  | .hbm, ⟨27, _⟩ => ⟨S8x128x128x256, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8x128x128x256_S8x128x128_d3 : S8x128x128x256.ReducesTo [3] S8x128x128
  h_S_ : 0 < S_.numel
  bcast_S8x128x128_S8x128x128x1_0_1_2 : S8x128x128.BroadcastsInDim S8x128x128x1 (![0, 1, 2] : Fin 3 → Fin S8x128x128x1.rank)
  bcast_S_S8x128x128x1 : S_.BroadcastsInDim S8x128x128x1 (![] : Fin 0 → Fin S8x128x128x1.rank)
  bcast_S8x128x128x1_S8x128x128x256_0_1_2_3 : S8x128x128x1.BroadcastsInDim S8x128x128x256 (![0, 1, 2, 3] : Fin 4 → Fin S8x128x128x256.rank)
  bcast_S1x128x1x1_S8x128x128x256_0_1_2_3 : S1x128x1x1.BroadcastsInDim S8x128x128x256 (![0, 1, 2, 3] : Fin 4 → Fin S8x128x128x256.rank)

variable [Facts₀]

class Facts : Prop extends Facts₀ where

variable [Facts]
-- ==== Proof.LayerNorm.lean ====
/-
  Layer normalisation of every row of 256 entries of an [8, 128, 128, 256] array, followed by a scale and a shift that
  depend on the channel (the second coordinate) only, as ONE function of the three argument arrays on the extended
  reals. Two spellings of it are stated: the one that multiplies the centred entry by (rsqrt (var + ε) · gain), and
  the one that divides the centred entry by sqrt (var + ε) and then multiplies by gain. They are the same function:
  the variance is a sum of squares divided by 256, hence non-negative, so var + ε is a POSITIVE extended real
  (a positive real or +∞), and for such a y one has a · (rsqrt y · g) = (a / sqrt y) · g — for a real y because
  rsqrt y = 1 / sqrt y and the product of extended reals is associative, for y = +∞ because both sides are 0.
  No finiteness of the entries is used.
-/
import Idealize.ShloMosaic.PureOps.Ideal
import Idealize.ShloMosaic.PureOps.Ideal.Laws
import Idealize.ShloMosaic.Lib.ValueIdx

noncomputable section

open scoped BigOperators

namespace Cert.LayerNorm

open Idealize.ShloMosaic Idealize.ShloMosaic.ValueIdx

/-- The shape of the normalised array. -/
abbrev Arr : Shape := ⟨4, ![8, 128, 128, 256]⟩
/-- The shape of the per-channel scale and of the per-channel shift. -/
abbrev Par : Shape := ⟨4, ![1, 128, 1, 1]⟩

/-- The row length, as the float literal both programs divide by. -/
def n256 : EReal := Ideal.ofBits .f32 0x43800000#32
/-- The literal added to the variance. -/
def eps : EReal := Ideal.ofBits .f32 0x322BCC77#32

/-- The divisor denotes the real number 256. -/
theorem n256_eq : n256 = ((256 : ℝ) : EReal) := by
  unfold n256; simp [Ideal.ofBits, Ideal.ieee, -EReal.coe_mul]; norm_num

/-- The literal added to the variance denotes a positive real. -/
theorem eps_pos : 0 < eps := by
  unfold eps; simp [Ideal.ofBits, Ideal.ieee, -EReal.coe_mul]

variable (x : Arr.Idx → EReal) (g b : Par.Idx → EReal)

/-- The mean of row (n, c, h): the sum of its 256 entries divided by 256. -/
def mean (n : Fin 8) (c h : Fin 128) : EReal :=
  Ideal.div (∑ k : Fin 256, x (ix4 n c h k)) n256

/-- An entry minus the mean of its row. -/
def cen (n : Fin 8) (c h : Fin 128) (w : Fin 256) : EReal :=
  x (ix4 n c h w) - mean x n c h

/-- The variance of row (n, c, h): the sum of the squares of its centred entries divided by 256. -/
def var (n : Fin 8) (c h : Fin 128) : EReal :=
  Ideal.div (∑ k : Fin 256, cen x n c h k * cen x n c h k) n256

/-- The result at (n, c, h, w), spelt with the reciprocal square root folded into the scale. -/
def viaRsqrt (n : Fin 8) (c h : Fin 128) (w : Fin 256) : EReal :=
  cen x n c h w * (Ideal.rsqrt (var x n c h + eps) * g (ix4 0 c 0 0)) + b (ix4 0 c 0 0)

/-- The result at (n, c, h, w), spelt with a division by the standard deviation. -/
def viaSqrt (n : Fin 8) (c h : Fin 128) (w : Fin 256) : EReal :=
  Ideal.div (cen x n c h w) (Ideal.sqrt (var x n c h + eps)) * g (ix4 0 c 0 0) + b (ix4 0 c 0 0)

/-- The whole result array in the first spelling. -/
def normRsqrt : Arr.Idx → EReal := fun i => viaRsqrt x g b (i 0) (i 1) (i 2) (i 3)

/-- The whole result array in the second spelling. -/
def normSqrt : Arr.Idx → EReal := fun i => viaSqrt x g b (i 0) (i 1) (i 2) (i 3)

/-- A square of an extended real is non-negative (also at the infinities: (±∞)·(±∞) = +∞). -/
theorem mul_self_nonneg (a : EReal) : 0 ≤ a * a :=
  EReal.mul_nonneg_iff.mpr ((le_total 0 a).elim (fun h => .inl ⟨h, h⟩) (fun h => .inr ⟨h, h⟩))

/-- The variance is non-negative: a sum of squares, times 1/256. -/
theorem var_nonneg (n : Fin 8) (c h : Fin 128) : 0 ≤ var x n c h := by
  unfold var
  rw [n256_eq, Ideal.div_coe (by norm_num)]
  exact EReal.mul_nonneg (Finset.sum_nonneg fun k _ => mul_self_nonneg _)
    (EReal.coe_nonneg.mpr (by norm_num))

/-- So the argument of the square root is positive. -/
theorem var_add_eps_pos (n : Fin 8) (c h : Fin 128) : 0 < var x n c h + eps :=
  lt_of_lt_of_le eps_pos (le_add_of_nonneg_left (var_nonneg x n c h))

/-- For a positive extended real y: a · (rsqrt y · s) = (a / sqrt y) · s. -/
theorem mul_rsqrt_eq_div_sqrt (a s : EReal) {y : EReal} (hy : 0 < y) :
    a * (Ideal.rsqrt y * s) = Ideal.div a (Ideal.sqrt y) * s := by
  induction y using EReal.rec with
  | bot => exact absurd hy not_lt_bot
  | coe r =>
    have hr : 0 < r := EReal.coe_pos.mp hy
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hs, one_div, mul_assoc]
  | top =>
    rw [Ideal.rsqrt_top, Ideal.sqrt_top, zero_mul, mul_zero, Ideal.div, if_neg EReal.top_ne_zero, EReal.inv_top,
      mul_zero, zero_mul]

/-- The two spellings agree at every entry. -/
theorem viaRsqrt_eq_viaSqrt (n : Fin 8) (c h : Fin 128) (w : Fin 256) :
    viaRsqrt x g b n c h w = viaSqrt x g b n c h w := by
  unfold viaRsqrt viaSqrt
  rw [mul_rsqrt_eq_div_sqrt _ _ (var_add_eps_pos x n c h)]

/-- The two spellings are one function of the three arrays. -/
theorem normRsqrt_eq_normSqrt : normRsqrt x g b = normSqrt x g b :=
  funext fun i => viaRsqrt_eq_viaSqrt x g b (i 0) (i 1) (i 2) (i 3)

end Cert.LayerNorm

end
-- ==== Proof.RefNorm.lean ====
/-
  The reference program's result, stage by stage, is layer normalisation in its division spelling
  (LayerNorm.lean's `normSqrt`): the row sum divided by 256 is the mean, the entry minus the broadcast mean is the
  centred entry, the row sum of its squares divided by 256 is the variance, and the result is the centred entry
  divided by the square root of (variance + ε), times the channel's gain, plus the channel's bias. Each stage is
  read at an index whose four coordinates are named, and each broadcast's index function is identified with the
  coordinates it keeps.
-/
import proofs.«115333_j1580547968901_2_alg».proof.Proof.Gen.ReferenceIdeal.Read
import proofs.«115333_j1580547968901_2_alg».proof.Proof.LayerNorm

noncomputable section

open scoped BigOperators

namespace Cert.ReferenceIdeal.RefNorm

open Cert.ReferenceIdeal Cert.ReferenceIdeal.Read Idealize.ShloMosaic Idealize.ShloMosaic.ValueIdx Cert.LayerNorm

variable (x : Arr.Idx → EReal) (g b : Par.Idx → EReal)

/-- The first row sum, divided by 256 and kept as a column, is the row's mean. -/
theorem mean_eq (n : Fin 8) (c h : Fin 128) (u : Fin 1) :
    val_main_v3 (F := Ideal) x (ix4 n c h u) = mean x n c h := by
  rw [val_main_v3_apply, val_main_v1_apply, val_main_v0_apply, val_main_v2_apply, val_main_cst_0_apply,
    val_main_cst_apply]
  show Ideal.div (Ideal.ofBits .f32 0x00000000#32 + ∑ k : Fin 256, x (idx_main_v0 (idx_main_v1 (ix4 n c h u)) k))
    (Ideal.ofBits .f32 0x43800000#32) = _
  rw [Ideal.ofBits_zero_f32, zero_add]
  refine congrArg (Ideal.div · n256) (Finset.sum_congr rfl fun k _ => congrArg x ?_)
  funext a
  match a with | ⟨0, _⟩ => rfl | ⟨1, _⟩ => rfl | ⟨2, _⟩ => rfl | ⟨3, _⟩ => rfl

/-- The entry minus the mean broadcast along its row is the centred entry. -/
theorem cen_eq (n : Fin 8) (c h : Fin 128) (w : Fin 256) :
    val_main_v5 (F := Ideal) x (ix4 n c h w) = cen x n c h w := by
  rw [val_main_v5_apply, val_main_v4_apply]
  have e : idx_main_v4 (ix4 n c h w) = ix4 n c h (0 : Fin 1) := by
    funext a
    match a with | ⟨0, _⟩ => rfl | ⟨1, _⟩ => rfl | ⟨2, _⟩ => rfl | ⟨3, _⟩ => rfl
  rw [e, mean_eq]
  rfl

/-- The row sum of the squared centred entries, divided by 256 and kept as a column, is the row's variance. -/
theorem var_eq (n : Fin 8) (c h : Fin 128) (u : Fin 1) :
    val_main_v10 (F := Ideal) x (ix4 n c h u) = var x n c h := by
  rw [val_main_v10_apply, val_main_v8_apply, val_main_v7_apply, val_main_v9_apply, val_main_cst_2_apply,
    val_main_cst_1_apply]
  show Ideal.div (Ideal.ofBits .f32 0x00000000#32
      + ∑ k : Fin 256, val_main_v6 (F := Ideal) x (idx_main_v7 (idx_main_v8 (ix4 n c h u)) k))
    (Ideal.ofBits .f32 0x43800000#32) = _
  rw [Ideal.ofBits_zero_f32, zero_add]
  refine congrArg (Ideal.div · n256) (Finset.sum_congr rfl fun k _ => ?_)
  have e : idx_main_v7 (idx_main_v8 (ix4 n c h u)) k = ix4 n c h k := by
    funext a
    match a with | ⟨0, _⟩ => rfl | ⟨1, _⟩ => rfl | ⟨2, _⟩ => rfl | ⟨3, _⟩ => rfl
  rw [e, val_main_v6_apply, cen_eq]
  rfl

/-- The reference's result at (n, c, h, w). -/
theorem out_eq (n : Fin 8) (c h : Fin 128) (w : Fin 256) :
    val_main_v19 (F := Ideal) x g b (ix4 n c h w) = viaSqrt x g b n c h w := by
  rw [val_main_v19_apply, val_main_v17_apply, val_main_v18_apply, val_main_v16_apply, val_main_v15_apply,
    val_main_v14_apply, val_main_v13_apply, val_main_v12_apply, val_main_v11_apply, val_main_cst_3_apply, cen_eq]
  have e : idx_main_v14 (ix4 n c h w) = ix4 n c h (0 : Fin 1) := by
    funext a
    match a with | ⟨0, _⟩ => rfl | ⟨1, _⟩ => rfl | ⟨2, _⟩ => rfl | ⟨3, _⟩ => rfl
  have eg : idx_main_v16 (ix4 n c h w) = ix4 (0 : Fin 1) c (0 : Fin 1) (0 : Fin 1) := by
    funext a
    match a with | ⟨0, _⟩ => rfl | ⟨1, _⟩ => rfl | ⟨2, _⟩ => rfl | ⟨3, _⟩ => rfl
  have eb : idx_main_v18 (ix4 n c h w) = ix4 (0 : Fin 1) c (0 : Fin 1) (0 : Fin 1) := by
    funext a
    match a with | ⟨0, _⟩ => rfl | ⟨1, _⟩ => rfl | ⟨2, _⟩ => rfl | ⟨3, _⟩ => rfl
  rw [e, eg, eb, var_eq]
  rfl

/-- The reference's result array is layer normalisation in the division spelling. -/
theorem result_eq : val_main_v19 (F := Ideal) x g b = normSqrt x g b := by
  funext i
  obtain ⟨n, c, h, w, rfl⟩ : ∃ (n : Fin 8) (c h : Fin 128) (w : Fin 256), i = ix4 n c h w :=
    ⟨i 0, i 1, i 2, i 3, eq_ix4 i⟩
  exact out_eq x g b n c h w

end Cert.ReferenceIdeal.RefNorm

end
-- ==== Proof.LibLanes4.lean ====
/-
  Three readings at an index for a rank-4 array reduced along its last axis (the lanes), for any extents A, B, C, D:
  * a lane sum: a `vector.multi_reduction <add>` of an [A, B, C, D] f32 array along axis 3, read at the extended
    reals at (a, b, c), is the sum over k : Fin D of the array at (a, b, c, k);
  * the keepdims cast [A, B, C] → [A, B, C, 1] read at (a, b, c, u) is the operand at (a, b, c);
  * the lane broadcast [A, B, C, 1] → [A, B, C, D] read at (a, b, c, d) is the operand at (a, b, c, 0).
  Together they read `x - sum(x, axis=-1, keepdims=True) / n` and its like one entry at a time.
-/
import Idealize.ShloMosaic.PureOps.Ideal.Laws
import Idealize.ShloMosaic.Lib.ValueIdx
import Idealize.ShloMosaic.Lib.Pipeline.Value

noncomputable section

open scoped BigOperators

namespace Cert.LibLanes4

open Idealize.ShloMosaic Idealize.ShloMosaic.ValueIdx

variable {A B C D : Nat}

/-- A lane sum of a rank-4 f32 array at the extended reals, read at (a, b, c): the sum of the D entries of that lane
    row. The accumulator literal is the zero word, whatever proof the printed term carries for it. -/
theorem laneAdd_apply (P : FVec Ideal ⟨4, ![A, B, C, D]⟩ .f32)
    (h : (⟨4, ![A, B, C, D]⟩ : Shape).Reduces [3] ⟨3, ![A, B, C]⟩) (hφ : FKind.Formats .f32)
    (hacc : (0x00000000#32 : BitVec 32) = FKind.add.neutral .f32 hφ) (a : Fin A) (b : Fin B) (c : Fin C) :
    multiReduction .add [3] ⟨3, ![A, B, C]⟩ P 0x00000000#32 h hφ hacc (ix3 a b c) = ∑ k : Fin D, P (ix4 a b c k) :=
  (Ideal.multiReduction_add_single P _ h hφ hacc (ix3 a b c)).trans
    (Finset.sum_congr rfl fun k _ => congrArg P (funext fun e => Fin.ext (by
      match e with | ⟨0, _⟩ => rfl | ⟨1, _⟩ => rfl | ⟨2, _⟩ => rfl | ⟨3, _⟩ => rfl)))

/-- The keepdims cast of a rank-3 array to a trailing unit axis, read at (a, b, c, u). -/
theorem keepLane_apply {α : Type} (v : (⟨3, ![A, B, C]⟩ : Shape).Idx → α)
    (h : (⟨3, ![A, B, C]⟩ : Shape).ShapeCasts ⟨4, ![A, B, C, 1]⟩) (a : Fin A) (b : Fin B) (c : Fin C) (u : Fin 1) :
    shapeCast ⟨4, ![A, B, C, 1]⟩ v h (ix4 a b c u) = v (ix3 a b c) := by
  refine shapeCast_apply v h _ _ ?_
  rw [Shape.rowMajor_val_three, Shape.rowMajor_val_four]
  show (a.val * B + b.val) * C + c.val = ((a.val * B + b.val) * C + c.val) * 1 + u.val
  have := u.isLt
  omega

/-- The broadcast of a trailing unit axis to D lanes, read at (a, b, c, d). -/
theorem laneBcast_apply {α : Type} (v : (⟨4, ![A, B, C, 1]⟩ : Shape).Idx → α)
    (h : (⟨4, ![A, B, C, 1]⟩ : Shape).Broadcasts ⟨4, ![A, B, C, D]⟩) (a : Fin A) (b : Fin B) (c : Fin C) (d : Fin D) :
    broadcastTo ⟨4, ![A, B, C, D]⟩ v h (ix4 a b c d) = v (ix4 a b c (0 : Fin 1)) := by
  refine broadcastTo_apply v h _ _ fun i => ?_
  match i with
  | ⟨0, _⟩ => show a.val = if A = 1 then 0 else a.val; have := a.isLt; split <;> omega
  | ⟨1, _⟩ => show b.val = if B = 1 then 0 else b.val; have := b.isLt; split <;> omega
  | ⟨2, _⟩ => show c.val = if C = 1 then 0 else c.val; have := c.isLt; split <;> omega
  | ⟨3, _⟩ => show 0 = if (1 : Nat) = 1 then 0 else d.val; rw [if_pos rfl]

end Cert.LibLanes4

end
-- ==== Proof.BlockNorm.lean ====
/-
  What the kernel body leaves in its output block, read one entry at a time at the extended reals. The body takes
  a block P0 of 32 channels × 128 rows × 256 lanes, and a gain and a bias per channel (P1, P2); at (0, c', h, w)
  it leaves (P0 − lane mean) · (rsqrt (lane mean of the squared centred entries + ε) · P1 c') + P2 c'. Whenever the
  block's rows are rows (n, c, ·, ·) of a whole array x, and P1, P2 at c' are the whole gain and bias at c, that
  entry is layer normalisation of x at (n, c, h, w) in the reciprocal-square-root spelling of LayerNorm.lean.
-/
import proofs.«115333_j1580547968901_2_alg».proof.Proof.Gen.KernelIdeal.Value
import proofs.«115333_j1580547968901_2_alg».proof.Proof.LayerNorm
import proofs.«115333_j1580547968901_2_alg».proof.Proof.LibLanes4

noncomputable section

open scoped BigOperators

namespace Cert.KernelIdeal.BlockNorm

open Cert.KernelIdeal Cert.KernelIdeal.Gen Idealize.ShloMosaic Idealize.ShloMosaic.ValueIdx Cert.LayerNorm
  Cert.LibLanes4

/-- The lane sums of a block: one per (channel, row). -/
def laneSum (P : FVec Ideal S1x32x128x256 .f32) : FVec Ideal S1x32x128 .f32 :=
  multiReduction .add [3] S1x32x128 P 0x00000000#32 reduces_S1x32x128x256_S1x32x128 (.inl rfl) rfl

/-- The block minus its lane means, the means kept as a column and broadcast back along the lanes. -/
def cenBlk (P : FVec Ideal S1x32x128x256 .f32) : FVec Ideal S1x32x128x256 .f32 :=
  subf P (broadcastTo S1x32x128x256 (divf (shapeCast S1x32x128x1 (laneSum P) shapeCasts_S1x32x128_S1x32x128x1)
    (broadcast S1x32x128x1 (Scalar.ofBits .f32 0x43800000#32))) broadcasts_S1x32x128x1_S1x32x128x256)

/-- The body's block, entry by entry, over the two lane sums it takes. -/
theorem body_eq (P0 : Vec Ideal S1x32x128x256 .f32) (P1 P2 : Vec Ideal S1x32x1x1 .f32) (y : S1x32x128x256.Idx) :
    Cert.KernelIdeal.Value.E3 (F := Ideal) P0 P1 P2 y
      = (P0 (Cert.KernelIdeal.Value.ix3_0 y) - Ideal.div (laneSum P0 (Cert.KernelIdeal.Value.ix3_1 y)) n256)
          * (Ideal.rsqrt (Ideal.div (laneSum (mulf (cenBlk P0) (cenBlk P0)) (Cert.KernelIdeal.Value.ix3_2 y)) n256 + eps)
              * P1 (Cert.KernelIdeal.Value.ix3_3 y))
        + P2 (Cert.KernelIdeal.Value.ix3_4 y) := rfl

/-- A lane sum of a block at (0, c', h). -/
theorem laneSum_apply (P : FVec Ideal S1x32x128x256 .f32) (c' : Fin 32) (h : Fin 128) :
    laneSum P (ix3 (0 : Fin 1) c' h) = ∑ k : Fin 256, P (ix4 (0 : Fin 1) c' h k) := by
  unfold laneSum
  exact laneAdd_apply P _ _ _ 0 c' h

/-- A centred entry of a block. -/
theorem cenBlk_apply (P : FVec Ideal S1x32x128x256 .f32) (c' : Fin 32) (h : Fin 128) (k : Fin 256) :
    cenBlk P (ix4 (0 : Fin 1) c' h k)
      = P (ix4 (0 : Fin 1) c' h k) - Ideal.div (∑ k' : Fin 256, P (ix4 (0 : Fin 1) c' h k')) n256 := by
  unfold cenBlk
  show P (ix4 (0 : Fin 1) c' h k) - (broadcastTo S1x32x128x256 _ broadcasts_S1x32x128x1_S1x32x128x256) (ix4 (0 : Fin 1) c' h k) = _
  rw [laneBcast_apply]
  show P (ix4 (0 : Fin 1) c' h k)
      - Ideal.div ((shapeCast S1x32x128x1 (laneSum P) shapeCasts_S1x32x128_S1x32x128x1) (ix4 (0 : Fin 1) c' h (0 : Fin 1)))
          (Ideal.ofBits .f32 0x43800000#32) = _
  rw [keepLane_apply, laneSum_apply]
  rfl

variable (x : Arr.Idx → EReal) (g b : Par.Idx → EReal)

/-- THE BLOCK ENTRY: for a block whose rows of channel c' are the rows (n, c, ·, ·) of x and whose gain and bias at
    c' are g and b at c, the body leaves layer normalisation of x at (n, c, h, w). -/
theorem entry_eq (P0 : Vec Ideal S1x32x128x256 .f32) (P1 P2 : Vec Ideal S1x32x1x1 .f32) (n : Fin 8) (c : Fin 128)
    (c' : Fin 32) (h0 : ∀ (h : Fin 128) (k : Fin 256), P0 (ix4 (0 : Fin 1) c' h k) = x (ix4 n c h k))
    (h1 : P1 (ix4 (0 : Fin 1) c' (0 : Fin 1) (0 : Fin 1)) = g (ix4 (0 : Fin 1) c (0 : Fin 1) (0 : Fin 1)))
    (h2 : P2 (ix4 (0 : Fin 1) c' (0 : Fin 1) (0 : Fin 1)) = b (ix4 (0 : Fin 1) c (0 : Fin 1) (0 : Fin 1)))
    (h : Fin 128) (w : Fin 256) :
    Cert.KernelIdeal.Value.E3 (F := Ideal) P0 P1 P2 (ix4 (0 : Fin 1) c' h w) = viaRsqrt x g b n c h w := by
  have e0 : Cert.KernelIdeal.Value.ix3_0 (ix4 (0 : Fin 1) c' h w) = ix4 (0 : Fin 1) c' h w := by
    funext a; match a with | ⟨0, _⟩ => rfl | ⟨1, _⟩ => rfl | ⟨2, _⟩ => rfl | ⟨3, _⟩ => rfl
  have e1 : Cert.KernelIdeal.Value.ix3_1 (ix4 (0 : Fin 1) c' h w) = ix3 (0 : Fin 1) c' h := by
    funext a; match a with | ⟨0, _⟩ => rfl | ⟨1, _⟩ => rfl | ⟨2, _⟩ => rfl
  have e2 : Cert.KernelIdeal.Value.ix3_2 (ix4 (0 : Fin 1) c' h w) = ix3 (0 : Fin 1) c' h := by
    funext a; match a with | ⟨0, _⟩ => rfl | ⟨1, _⟩ => rfl | ⟨2, _⟩ => rfl
  have e3 : Cert.KernelIdeal.Value.ix3_3 (ix4 (0 : Fin 1) c' h w) = ix4 (0 : Fin 1) c' (0 : Fin 1) (0 : Fin 1) := by
    funext a; match a with | ⟨0, _⟩ => rfl | ⟨1, _⟩ => rfl | ⟨2, _⟩ => rfl | ⟨3, _⟩ => rfl
  have e4 : Cert.KernelIdeal.Value.ix3_4 (ix4 (0 : Fin 1) c' h w) = ix4 (0 : Fin 1) c' (0 : Fin 1) (0 : Fin 1) := by
    funext a; match a with | ⟨0, _⟩ => rfl | ⟨1, _⟩ => rfl | ⟨2, _⟩ => rfl | ⟨3, _⟩ => rfl
  have hc : ∀ k : Fin 256, cenBlk P0 (ix4 (0 : Fin 1) c' h k) = cen x n c h k := fun k => by
    rw [cenBlk_apply]
    simp only [h0]
    rfl
  rw [body_eq, e0, e1, e2, e3, e4, laneSum_apply, laneSum_apply, h1, h2, ← cenBlk_apply, hc]
  show cen x n c h w * (Ideal.rsqrt (Ideal.div (∑ k : Fin 256,
      cenBlk P0 (ix4 (0 : Fin 1) c' h k) * cenBlk P0 (ix4 (0 : Fin 1) c' h k)) n256 + eps) * g _) + b _ = _
  simp only [hc]
  rfl

end Cert.KernelIdeal.BlockNorm

end
-- ==== Proof.ArrayNorm.lean ====
/-
  From blocks to the whole array. The grid has 8 × 4 points; point (n, q) reads the block of x with first coordinate n
  and channels 32·q … 32·q + 31 (all rows, all lanes), and the gains and biases of those channels, and writes back the
  block of the result at the same place. Every entry a point writes is layer normalisation of x there (the block
  entry of BlockNorm.lean, the block's coordinates being block index × block size + the coordinate inside the block),
  and the 32 blocks cover the array: the entry (n, c, h, w) lies in the block of point (n, c / 32). So after the run
  the result array is layer normalisation of the three argument arrays in the reciprocal-square-root spelling.
-/
import proofs.«115333_j1580547968901_2_alg».proof.Proof.Gen.KernelIdeal.Value
import proofs.«115333_j1580547968901_2_alg».proof.Proof.BlockNorm

noncomputable section

namespace Cert.KernelIdeal.ArrayNorm

open Cert.KernelIdeal Cert.KernelIdeal.Gen Idealize.ShloMosaic Idealize.ShloMosaic.TcCoe Idealize.SL.Sem
  Idealize.ShloMosaic.ValueIdx Cert.LayerNorm
open Idealize.ShloMosaic.Pipeline (Dat)

variable (m : (ℓ : Loc nD τ sig) → Buf (Elt Ideal) ℓ) (ρ : Dev nD → PrngReg)

/-- The body's accesses start at the origin of their blocks. -/
theorem origin : (![0, 0, 0, 0] : Fin 4 → Nat) = fun _ => 0 := funext fun a => by fin_cases a <;> rfl

/-- The block indices, decided over the 32 grid points: the input block of x sits where the output block does; the
    gain and bias blocks follow the output's channel block and are at index 0 on the other axes; the output's block
    index is (n, q, 0, 0) with n ≤ 7 and q ≤ 3. -/
theorem block_indices : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = 0 ∧ win0_1.index t (1 : Fin 4) = win0_3.index t (1 : Fin 4)
    ∧ win0_1.index t (2 : Fin 4) = 0 ∧ win0_1.index t (3 : Fin 4) = 0
    ∧ win0_2.index t (0 : Fin 4) = 0 ∧ win0_2.index t (1 : Fin 4) = win0_3.index t (1 : Fin 4)
    ∧ win0_2.index t (2 : Fin 4) = 0 ∧ win0_2.index t (3 : Fin 4) = 0
    ∧ win0_3.index t (0 : Fin 4) ≤ 7 ∧ win0_3.index t (1 : Fin 4) ≤ 3
    ∧ win0_3.index t (2 : Fin 4) = 0 ∧ win0_3.index t (3 : Fin 4) = 0 :=
  (by decide +kernel : ∀ t : Fin grid0.N, _)

/-- Every block index (n, q, 0, 0) is some point's. -/
theorem block_onto : ∀ (n : Fin 8) (q : Fin 4), ∃ t : Fin cfg0.N, win0_3.index t = ![n.val, q.val, 0, 0] :=
  (by decide +kernel : ∀ (n : Fin 8) (q : Fin 4), ∃ t : Fin grid0.N, win0_3.index t = ![n.val, q.val, 0, 0])

/-- WHAT POINT `t` WRITES BACK is block `t` of layer normalisation of the argument arrays as the region finds them. -/
theorem flushed_eq (c : Dev nD) (t : Fin cfg0.N) :
    (dats m 0 c).flushed 3 t = ((cfg0.win 3).blk t).view.read (Elt Ideal)
      (normRsqrt (V m c main_arg0) (V m c main_arg1) (V m c main_arg2)) := by
  rw [Cert.KernelIdeal.Value.flushed3]
  unfold out0_3
  simp only [View.ld_unit_zero (S := S1x32x128x256) origin, View.ld_unit_zero (S := S1x32x1x1) origin]
  obtain ⟨a0, a1, a2, a3, b0, b1, b2, b3, d0, d1, d2, d3, o0, o1, o2, o3⟩ := block_indices t
  funext j
  obtain ⟨u, c', h, w, rfl⟩ : ∃ (u : Fin 1) (c' : Fin 32) (h : Fin 128) (w : Fin 256), j = ix4 u c' h w :=
    ⟨j 0, j 1, j 2, j 3, eq_ix4 j⟩
  obtain rfl : u = 0 := Fin.eq_zero u
  show View.canon ([⟨r0_0, k0_pay1 (iblk m c 0 t) (iblk m c 1 t) (iblk m c 2 t)⟩] :
      List (View.Piece (Elt Ideal) S1x32x128x256 .f32)) (ix4 (0 : Fin 1) c' h w)
    = normRsqrt (V m c main_arg0) (V m c main_arg1) (V m c main_arg2) (((cfg0.win 3).blk t).view.emb (ix4 (0 : Fin 1) c' h w))
  rw [Cert.KernelIdeal.Value.canon3_eq]
  have hc' : c'.val < 32 := c'.isLt
  have e : ((cfg0.win 3).blk t).view.emb (ix4 (0 : Fin 1) c' h w)
      = ix4 (⟨win0_3.index t (0 : Fin 4), by omega⟩ : Fin 8) (⟨win0_3.index t (1 : Fin 4) * 32 + c'.val, by omega⟩ : Fin 128) h w := by
    funext a; apply Fin.ext
    match a with
    | ⟨0, _⟩ => show win0_3.index t (0 : Fin 4) * 1 + 1 * 0 = win0_3.index t (0 : Fin 4); omega
    | ⟨1, _⟩ => show win0_3.index t (1 : Fin 4) * 32 + 1 * c'.val = win0_3.index t (1 : Fin 4) * 32 + c'.val; omega
    | ⟨2, _⟩ => show win0_3.index t (2 : Fin 4) * 128 + 1 * h.val = h.val; omega
    | ⟨3, _⟩ => show win0_3.index t (3 : Fin 4) * 256 + 1 * w.val = w.val; omega
  rw [e]
  show _ = viaRsqrt (V m c main_arg0) (V m c main_arg1) (V m c main_arg2) _ _ h w
  refine Cert.KernelIdeal.BlockNorm.entry_eq (V m c main_arg0) (V m c main_arg1) (V m c main_arg2)
    (iblk m c 0 t) (iblk m c 1 t) (iblk m c 2 t) _ _ c' ?_ ?_ ?_ h w
  · intro h k
    show V m c main_arg0 (((cfg0.win 0).blk t).view.emb (ix4 (0 : Fin 1) c' h k)) = V m c main_arg0 _
    have e0 : ((cfg0.win 0).blk t).view.emb (ix4 (0 : Fin 1) c' h k)
        = ix4 (⟨win0_3.index t (0 : Fin 4), by omega⟩ : Fin 8) (⟨win0_3.index t (1 : Fin 4) * 32 + c'.val, by omega⟩ : Fin 128) h k := by
      funext a; apply Fin.ext
      match a with
      | ⟨0, _⟩ => show win0_0.index t (0 : Fin 4) * 1 + 1 * 0 = win0_3.index t (0 : Fin 4); omega
      | ⟨1, _⟩ => show win0_0.index t (1 : Fin 4) * 32 + 1 * c'.val = win0_3.index t (1 : Fin 4) * 32 + c'.val; omega
      | ⟨2, _⟩ => show win0_0.index t (2 : Fin 4) * 128 + 1 * h.val = h.val; omega
      | ⟨3, _⟩ => show win0_0.index t (3 : Fin 4) * 256 + 1 * k.val = k.val; omega
    rw [e0]
  · show V m c main_arg1 (((cfg0.win 1).blk t).view.emb (ix4 (0 : Fin 1) c' (0 : Fin 1) (0 : Fin 1))) = V m c main_arg1 _
    have e1 : ((cfg0.win 1).blk t).view.emb (ix4 (0 : Fin 1) c' (0 : Fin 1) (0 : Fin 1))
        = ix4 (0 : Fin 1) (⟨win0_3.index t (1 : Fin 4) * 32 + c'.val, by omega⟩ : Fin 128) (0 : Fin 1) (0 : Fin 1) := by
      funext a; apply Fin.ext
      match a with
      | ⟨0, _⟩ => show win0_1.index t (0 : Fin 4) * 1 + 1 * 0 = 0; omega
      | ⟨1, _⟩ => show win0_1.index t (1 : Fin 4) * 32 + 1 * c'.val = win0_3.index t (1 : Fin 4) * 32 + c'.val; omega
      | ⟨2, _⟩ => show win0_1.index t (2 : Fin 4) * 1 + 1 * 0 = 0; omega
      | ⟨3, _⟩ => show win0_1.index t (3 : Fin 4) * 1 + 1 * 0 = 0; omega
    rw [e1]
  · show V m c main_arg2 (((cfg0.win 2).blk t).view.emb (ix4 (0 : Fin 1) c' (0 : Fin 1) (0 : Fin 1))) = V m c main_arg2 _
    have e2 : ((cfg0.win 2).blk t).view.emb (ix4 (0 : Fin 1) c' (0 : Fin 1) (0 : Fin 1))
        = ix4 (0 : Fin 1) (⟨win0_3.index t (1 : Fin 4) * 32 + c'.val, by omega⟩ : Fin 128) (0 : Fin 1) (0 : Fin 1) := by
      funext a; apply Fin.ext
      match a with
      | ⟨0, _⟩ => show win0_2.index t (0 : Fin 4) * 1 + 1 * 0 = 0; omega
      | ⟨1, _⟩ => show win0_2.index t (1 : Fin 4) * 32 + 1 * c'.val = win0_3.index t (1 : Fin 4) * 32 + c'.val; omega
      | ⟨2, _⟩ => show win0_2.index t (2 : Fin 4) * 1 + 1 * 0 = 0; omega
      | ⟨3, _⟩ => show win0_2.index t (3 : Fin 4) * 1 + 1 * 0 = 0; omega
    rw [e2]

/-- An index of the array is in point `t`'s block iff each coordinate is in the block's range on its axis. -/
theorem mem_block (t : Fin cfg0.N) (i : S8x128x128x256.Idx) :
    i ∈ ((cfg0.win 3).blk t).view.set ↔ ∀ a : Fin 4, win0_3.index t a * S1x32x128x256.size a ≤ (i a).val
      ∧ (i a).val < win0_3.index t a * S1x32x128x256.size a + S1x32x128x256.size a := by
  show i ∈ ((View.whole main_v0).slice (win0_3.rect t)).set ↔ _
  rw [View.set_slice_whole, Rect.mem_set_unit]
  exact Iff.rfl

/-- Every entry of the array lies in some point's block: (n, c, h, w) in the block of the point with index (n, c / 32). -/
theorem covered (i : S8x128x128x256.Idx) :
    ∃ t : Fin cfg0.N, (cfg0.win 3).flush t = true ∧ i ∈ ((cfg0.win 3).blk t).view.set := by
  have hi0 : (i 0).val < 8 := (i 0).isLt
  have hi1 : (i 1).val < 128 := (i 1).isLt
  have hi2 : (i 2).val < 128 := (i 2).isLt
  have hi3 : (i 3).val < 256 := (i 3).isLt
  obtain ⟨t, ht⟩ := block_onto ⟨(i 0).val, by omega⟩ ⟨(i 1).val / 32, by omega⟩
  have q0 : win0_3.index t (0 : Fin 4) = (i 0).val := congrFun ht 0
  have q1 : win0_3.index t (1 : Fin 4) = (i 1).val / 32 := congrFun ht 1
  have q2 : win0_3.index t (2 : Fin 4) = 0 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 32 ≤ (i 1).val ∧ (i 1).val < win0_3.index t (1 : Fin 4) * 32 + 32; omega
  | ⟨2, _⟩ => show win0_3.index t (2 : Fin 4) * 128 ≤ (i 2).val ∧ (i 2).val < win0_3.index t (2 : Fin 4) * 128 + 128; omega
  | ⟨3, _⟩ => show win0_3.index t (3 : Fin 4) * 256 ≤ (i 3).val ∧ (i 3).val < win0_3.index t (3 : Fin 4) * 256 + 256; omega

/-- THE ARRAY after the run is layer normalisation of the argument arrays. -/
theorem final (c : Dev nD) :
    (dats m 0 c).arrAt 3 cfg0.N = normRsqrt (m ((c : Thread nD τ).loc main_arg0)) (m ((c : Thread nD τ).loc main_arg1))
      (m ((c : Thread nD τ).loc main_arg2)) :=
  (dats m 0 c).arrAt_eq_of_cover 3 _ (fun t _ => flushed_eq m c t) covered

/-- The kernel's run, read: the result array at layer normalisation of the arguments, the arguments unchanged. -/
theorem run : θ_run defs (onTc (τ := τ) (main (F := Ideal))) ⟨m, fun _ => 0, ρ⟩ fun r => ∀ c : Dev nD,
      r.2.mem ((c : Thread nD τ).loc main_v0) = normRsqrt (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayNorm

end
-- ==== Proof.lean ====
/-
  The kernel normalises every row of 256 entries of an [8, 128, 128, 256] array — subtract the row mean, multiply by
  rsqrt (row variance + ε) — and applies a gain and a bias per channel, the gain folded into the per-row scale; the
  reference divides the centred entry by sqrt (row variance + ε) and then applies gain and bias. At the extended
  reals both results are one function of the three argument arrays (LayerNorm.lean: the variance is a non-negative
  extended real, so variance + ε is positive, and for a positive y, finite or +∞, a · (rsqrt y · g) = (a / sqrt y) · g).
  The kernel's result array is that function by ArrayNorm.lean (each grid point's block, BlockNorm.lean, and the
  cover of the array by the 32 blocks), the reference's by RefNorm.lean (its operations read one at a time).
  The three frames are the programs' runs with the value dropped; the idealization rewrote nothing, so the
  preservation claim is `True`. The precondition (finite inputs) is not used.
-/
import proofs.«115333_j1580547968901_2_alg».proof.Defs
import proofs.«115333_j1580547968901_2_alg».proof.Proof.Gen.Kernel
import proofs.«115333_j1580547968901_2_alg».proof.Proof.Gen.Kernel.Skeleton
import proofs.«115333_j1580547968901_2_alg».proof.Proof.Gen.Kernel.Launch
import proofs.«115333_j1580547968901_2_alg».proof.Proof.Gen.Kernel.Points
import proofs.«115333_j1580547968901_2_alg».proof.Proof.Gen.Kernel.Frame
import proofs.«115333_j1580547968901_2_alg».proof.Proof.Gen.KernelIdeal
import proofs.«115333_j1580547968901_2_alg».proof.Proof.Gen.KernelIdeal.Skeleton
import proofs.«115333_j1580547968901_2_alg».proof.Proof.Gen.KernelIdeal.Launch
import proofs.«115333_j1580547968901_2_alg».proof.Proof.Gen.KernelIdeal.Points
import proofs.«115333_j1580547968901_2_alg».proof.Proof.Gen.KernelIdeal.Frame
import proofs.«115333_j1580547968901_2_alg».proof.Proof.Gen.ReferenceIdeal
import proofs.«115333_j1580547968901_2_alg».proof.Proof.Gen.Pre_finite_inputs
import proofs.«115333_j1580547968901_2_alg».proof.Proof.Gen.KernelIdeal.Value
import proofs.«115333_j1580547968901_2_alg».proof.Proof.Gen.ReferenceIdeal.Run
import proofs.«115333_j1580547968901_2_alg».proof.Proof.Gen.ReferenceIdeal.Read
import proofs.«115333_j1580547968901_2_alg».proof.Proof.LayerNorm
import proofs.«115333_j1580547968901_2_alg».proof.Proof.RefNorm
import proofs.«115333_j1580547968901_2_alg».proof.Proof.ArrayNorm
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with layer normalisation of the same argument arrays: the kernel's array in the
    reciprocal-square-root spelling, the reference's in the division spelling, which are one function. -/
theorem algebraic : Cert.algebraic_KernelIdeal_ReferenceIdeal := by
  intro m ρ m' ρ' _ hagree
  refine ⟨_, Cert.KernelIdeal.ArrayNorm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefNorm.result_eq, (hagree c).1, (hagree c).2.1,
    (hagree c).2.2]
  exact (Cert.LayerNorm.normRsqrt_eq_normSqrt _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
